-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1000000 : Shape := ⟨1, ![1000000]⟩
abbrev S128x256 : Shape := ⟨2, ![128, 256]⟩
abbrev S1x128 : Shape := ⟨2, ![1, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S50000x128 .f32) (main_arg1 : IVec S1000000 32) (main_arg2 : IVec S1000000 32) (main_arg3 : FVec F S128x256 .f32) (main_arg4 : FVec F S1x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S1x128 .f32 := Host.absf main_arg4
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Kernel.lean ====
abbrev S50000x128 : Shape := ⟨2, ![50000, 128]⟩
abbrev S1000000 : Shape := ⟨1, ![1000000]⟩
abbrev S128x256 : Shape := ⟨2, ![128, 256]⟩
abbrev S1x128 : Shape := ⟨2, ![1, 128]⟩
abbrev S_ : Shape := ⟨0, ![]⟩
abbrev S1000000x1 : Shape := ⟨2, ![1000000, 1]⟩
abbrev S1000000x128 : Shape := ⟨2, ![1000000, 128]⟩
abbrev S256x128 : Shape := ⟨2, ![256, 128]⟩
abbrev S128x128 : Shape := ⟨2, ![128, 128]⟩
abbrev S128x1 : Shape := ⟨2, ![128, 1]⟩
abbrev S8000x128 : Shape := ⟨2, ![8000, 128]⟩
abbrev S8000x1 : Shape := ⟨2, ![8000, 1]⟩

abbrev nBuf : Space → Nat
  | .hbm => 32
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S1000000, .i32⟩
  | .hbm, ⟨2, _⟩ => ⟨S1000000, .i32⟩
  | .hbm, ⟨3, _⟩ => ⟨S128x256, .f32⟩
  | .hbm, ⟨4, _⟩ => ⟨S1x128, .f32⟩
  | .hbm, ⟨5, _⟩ => ⟨S50000x128, .bf16⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x128, .bf16⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x128, .bf16⟩
  | .hbm, ⟨24, _⟩ => ⟨S256x128, .f32⟩
  | .hbm, ⟨25, _⟩ => ⟨S256x128, .bf16⟩
  | .hbm, ⟨26, _⟩ => ⟨S128x128, .bf16⟩
  | .hbm, ⟨27, _⟩ => ⟨S128x128, .bf16⟩
  | .hbm, ⟨28, _⟩ => ⟨S128x1, .f32⟩
  | .hbm, ⟨29, _⟩ => ⟨S128x1, .bf16⟩
  | .hbm, ⟨30, _⟩ => ⟨S1000000x128, .f32⟩
  | .hbm, ⟨31, _⟩ => ⟨S1000000x1, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S128x128, .bf16⟩
  | .local _ .vmem, ⟨5, _⟩ => ⟨S128x128, .bf16⟩
  | .local _ .vmem, ⟨6, _⟩ => ⟨S128x1, .bf16⟩
  | .local _ .vmem, ⟨7, _⟩ => ⟨S8000x128, .f32⟩
  | .local _ .vmem, ⟨8, _⟩ => ⟨S8000x128, .f32⟩
  | .local _ .vmem, ⟨9, _⟩ => ⟨S8000x1, .f32⟩
  | .local _ .vmem, ⟨10, _⟩ => ⟨S8000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S128x256_S256x128_1_0 : S128x256.Transposes [1, 0] S256x128
  slices_S256x128_S128x128_0_0 : S256x128.Slices ![0, 0] S128x128
  slices_S256x128_S128x128_128_0 : S256x128.Slices ![128, 0] S128x128
  transposes_S1x128_S128x1_1_0 : S1x128.Transposes [1, 0] S128x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S8000x1_S8000x1_0_0 : ∀ a, (![0, 0] : Fin 2 → Nat) a + S8000x1.size a ≤ S8000x1.size a
  h_S8000x1 : 0 < S8000x1.numel
  gather_S50000x128_S1000000x1_S1000000x128_1_0_n_n_0_1_1128_wf : GatherDims.WF S50000x128 S1000000x1 S1000000x128 [1] [0] [] [0] [] 1 ![1, 128]
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .bf16 = 32 ∨ (Rect.block (s := S1000000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S1000000x128.size a
  hwx0_1 : ∀ i : grid0.Coords, EltTy.bits .bf16 = 32 ∨ (Rect.block (s := S1000000x128) S8000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .bf16 = 32 ∨ (Rect.block (s := S128x1) S128x1.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S1000000x128.size a
  hwx0_5 : ∀ i : grid0.Coords, EltTy.bits .f32 = 32 ∨ (Rect.block (s := S1000000x128) S8000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x1.size a ≤ S1000000x1.size a
  hwx0_6 : ∀ i : grid0.Coords, EltTy.bits .f32 = 32 ∨ (Rect.block (s := S1000000x1) S8000x1.size (cc0_transform_6 i) (hinb0_6 i)).WholeWords (EltTy.packing .f32)

variable [Facts₀]

def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_v7) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_0) S8000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_1) S8000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S1000000 : Shape := ⟨1, ![1000000]⟩
abbrev S128x256 : Shape := ⟨2, ![128, 256]⟩
abbrev S1x128 : Shape := ⟨2, ![1, 128]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩

abbrev nBuf : Space → Nat
  | .hbm => 37
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1000000, .i32⟩
  | .hbm, ⟨2, _⟩ => ⟨S1000000, .i32⟩
  | .hbm, ⟨3, _⟩ => ⟨S128x256, .f32⟩
  | .hbm, ⟨4, _⟩ => ⟨S1x128, .f32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000x1, .i32⟩
  | .hbm, ⟨13, _⟩ => ⟨S1000000x128, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x128, .f32⟩
  | .hbm, ⟨23, _⟩ => ⟨S1000000x256, .f32⟩
  | .hbm, ⟨24, _⟩ => ⟨S1000000x128, .f32⟩
  | .hbm, ⟨25, _⟩ => ⟨S_, .f32⟩
  | .hbm, ⟨26, _⟩ => ⟨S1000000x128, .f32⟩
  | .hbm, ⟨27, _⟩ => ⟨S1000000x128, .f32⟩
  | .hbm, ⟨28, _⟩ => ⟨S1000000x1, .f32⟩
  | .hbm, ⟨29, _⟩ => ⟨S_, .f32⟩
  | .hbm, ⟨30, _⟩ => ⟨S_, .f32⟩
  | .hbm, ⟨31, _⟩ => ⟨S1000000x1, .f32⟩
  | .hbm, ⟨32, _⟩ => ⟨S1000000x1, .i1⟩
  | .hbm, ⟨33, _⟩ => ⟨S_, .f32⟩
  | .hbm, ⟨34, _⟩ => ⟨S1000000x1, .f32⟩
  | .hbm, ⟨35, _⟩ => ⟨S1000000x1, .f32⟩
  | .hbm, ⟨36, _⟩ => ⟨S1000000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_call1_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v18 : Ref sig .tc := ⟨.hbm, 36, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  bcast_S_S1000000x128 : S_.BroadcastsInDim S1000000x128 (![] : Fin 0 → Fin S1000000x128.rank)
  bcast_S_S1000000x1 : S_.BroadcastsInDim S1000000x1 (![] : Fin 0 → Fin S1000000x1.rank)
  gather_S50000x128_S1000000x1_S1000000x128_1_0_n_n_0_1_1128_wf : GatherDims.WF S50000x128 S1000000x1 S1000000x128 [1] [0] [] [0] [] 1 ![1, 128]
  dot_S1000000x256_S128x256_S1000000x128_1_1_0_0_n_n_wf : DotDims.WF S1000000x256 S128x256 S1000000x128 [1] [1] [0] [0] [] []
  dot_S1000000x128_S1x128_S1000000x1_1_1_0_0_n_n_wf : DotDims.WF S1000000x128 S1x128 S1000000x1 [1] [1] [0] [0] [] []

variable [Facts₀]

def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S1000000x256_S128x256_S1000000x128_1_1_0_0_n_n : DotDims S1000000x256 S128x256 S1000000x128 where
  lhsContracting := [1]
  rhsContracting := [1]
  lhsNonContracting := [0]
  rhsNonContracting := [0]
  lhsBatch := []
  rhsBatch := []
  wf := dot_S1000000x256_S128x256_S1000000x128_1_1_0_0_n_n_wf
def dot_S1000000x128_S1x128_S1000000x1_1_1_0_0_n_n : DotDims S1000000x128 S1x128 S1000000x1 where
  lhsContracting := [1]
  rhsContracting := [1]
  lhsNonContracting := [0]
  rhsNonContracting := [0]
  lhsBatch := []
  rhsBatch := []
  wf := dot_S1000000x128_S1x128_S1000000x1_1_1_0_0_n_n_wf

class Facts : Prop extends Facts₀ where

variable [Facts]
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibTransposedDot.lean ====
/-
  A matrix product with the right operand contracted on its last axis, read at an index, at the ideal values.

  For the dimension numbers of an `[M, K]` by `[N, K]` product (contract the second axis of both operands; no batch
  axis: `l · rᵀ`) the contraction index has one coordinate, so the sum over it is a sum over `k : Fin K`, and the
  operand indices at the result index `(p, q)` are `(p, k)` and `(q, k)`. Hence, on the extended reals, the host's
  `dot_general` over these dimension numbers is `rowsDot`: entry `(p, q)` is `∑ k, l (p, k) * r (q, k)`, the dot
  product of row `p` of the left operand with row `q` of the right one.
-/
import Idealize.ShloMosaic.PureOps.Ideal.Laws
import Idealize.ShloMosaic.Lib.ValueIdx

noncomputable section

namespace Cert.LibTransposedDot

open Idealize.ShloMosaic Idealize.ShloMosaic.ValueIdx

/-- The products of the rows of an `[M, K]` array of extended reals with the rows of an `[N, K]` one: entry `(p, q)` is
    the sum over `k` of `l (p, k) * r (q, k)`. -/
def rowsDot {M K N : ℕ} (l : (⟨2, ![M, K]⟩ : Shape).Idx → EReal) (r : (⟨2, ![N, K]⟩ : Shape).Idx → EReal) :
    (⟨2, ![M, N]⟩ : Shape).Idx → EReal :=
  fun j => ∑ k : Fin K, l (ix2 (⟨(j 0).val, idx2_lt0 j⟩ : Fin M) k) * r (ix2 (⟨(j 1).val, idx2_lt1 j⟩ : Fin N) k)

theorem rowsDot_apply {M K N : ℕ} (l : (⟨2, ![M, K]⟩ : Shape).Idx → EReal) (r : (⟨2, ![N, K]⟩ : Shape).Idx → EReal)
    (p : Fin M) (q : Fin N) : rowsDot l r (ix2 p q) = ∑ k : Fin K, l (ix2 p k) * r (ix2 q k) := rfl

/-- These dimension numbers contract one axis, of extent `K`. -/
theorem tr_contr_rank (M K N : ℕ) : (DotDims.transposedRhs M K N).contr.rank = 1 := rfl
theorem tr_contr_size (M K N : ℕ) :
    (DotDims.transposedRhs M K N).contr.size ⟨0, by rw [tr_contr_rank]; exact Nat.one_pos⟩ = K := rfl

/-- The operands' indices at result index `j` and contraction index `q`: the left operand's row follows the result's
    row, the right operand's row the result's column, and both contracted axes the contraction coordinate. -/
theorem tr_lhs0 (M K N : ℕ) (j : (⟨2, ![M, N]⟩ : Shape).Idx) (q : (DotDims.transposedRhs M K N).contr.Idx) :
    ((DotDims.transposedRhs M K N).lhsIdx j q 0).val = (j 0).val := rfl
theorem tr_lhs1 (M K N : ℕ) (j : (⟨2, ![M, N]⟩ : Shape).Idx) (q : (DotDims.transposedRhs M K N).contr.Idx) :
    ((DotDims.transposedRhs M K N).lhsIdx j q 1).val = (q ⟨0, by rw [tr_contr_rank]; exact Nat.one_pos⟩).val := rfl
theorem tr_rhs0 (M K N : ℕ) (j : (⟨2, ![M, N]⟩ : Shape).Idx) (q : (DotDims.transposedRhs M K N).contr.Idx) :
    ((DotDims.transposedRhs M K N).rhsIdx j q 0).val = (j 1).val := rfl
theorem tr_rhs1 (M K N : ℕ) (j : (⟨2, ![M, N]⟩ : Shape).Idx) (q : (DotDims.transposedRhs M K N).contr.Idx) :
    ((DotDims.transposedRhs M K N).rhsIdx j q 1).val = (q ⟨0, by rw [tr_contr_rank]; exact Nat.one_pos⟩).val := rfl

/-- The sum over the contraction index of the operands' products is `rowsDot`. -/
theorem tr_sum {M K N : ℕ} (l : (⟨2, ![M, K]⟩ : Shape).Idx → EReal) (r : (⟨2, ![N, K]⟩ : Shape).Idx → EReal)
    (j : (⟨2, ![M, N]⟩ : Shape).Idx) :
    ∑ q : (DotDims.transposedRhs M K N).contr.Idx,
        l ((DotDims.transposedRhs M K N).lhsIdx j q) * r ((DotDims.transposedRhs M K N).rhsIdx j q)
      = rowsDot l r j := by
  unfold rowsDot
  rw [← Equiv.sum_comp (contrEquiv1 (DotDims.transposedRhs M K N) K (tr_contr_rank M K N) (tr_contr_size M K N)).symm]
  refine Finset.sum_congr rfl fun k _ => ?_
  have hk := contrEquiv1_symm_val (DotDims.transposedRhs M K N) K (tr_contr_rank M K N) (tr_contr_size M K N) k
  have el : (DotDims.transposedRhs M K N).lhsIdx j
        ((contrEquiv1 (DotDims.transposedRhs M K N) K (tr_contr_rank M K N) (tr_contr_size M K N)).symm k)
      = ix2 (⟨(j 0).val, idx2_lt0 j⟩ : Fin M) k := funext fun a => Fin.ext (by
    match a with
    | ⟨0, _⟩ => exact tr_lhs0 M K N j _
    | ⟨1, _⟩ => exact (tr_lhs1 M K N j _).trans hk)
  have er : (DotDims.transposedRhs M K N).rhsIdx j
        ((contrEquiv1 (DotDims.transposedRhs M K N) K (tr_contr_rank M K N) (tr_contr_size M K N)).symm k)
      = ix2 (⟨(j 1).val, idx2_lt1 j⟩ : Fin N) k := funext fun a => Fin.ext (by
    match a with
    | ⟨0, _⟩ => exact tr_rhs0 M K N j _
    | ⟨1, _⟩ => exact (tr_rhs1 M K N j _).trans hk)
  rw [el, er]

/-- The host's `dot_general` over these dimension numbers is `rowsDot`, whatever the schedule. -/
theorem dotGeneral_transposedRhs {M K N : ℕ} {φ₁ φ₂ : FTy} (prec : Option ContractPrecision) (sched : HostSchedule)
    (l : FVec Ideal ⟨2, ![M, K]⟩ φ₁) (r : FVec Ideal ⟨2, ![N, K]⟩ φ₂) :
    FloatOps.dotGeneral (DotDims.transposedRhs M K N) prec sched l r = rowsDot l r :=
  funext fun j => (Ideal.dotGeneral_apply (DotDims.transposedRhs M K N) prec sched l r j).trans (tr_sum l r j)

end Cert.LibTransposedDot

end
-- ==== Proof.LibSumSplit.lean ====
/-
  A finite sum over `Fin n` cut at a position.

  In any commutative additive monoid, the sum of `f` over `Fin n` with `n = a + b` is the sum over the first `a`
  positions plus the sum over the last `b` positions, the latter read at `a + x`. No subtraction or cancellation is used,
  so the law holds on the extended reals as it stands. Cutting twice or three times gives the three- and four-part forms.
-/
import Mathlib.Algebra.BigOperators.Fin

namespace Cert.LibSumSplit

/-- A sum over `Fin n`, `n = a + b`, is the sum over the first `a` positions plus the sum over the last `b`. -/
theorem sum_cut {M : Type*} [AddCommMonoid M] (a b n : ℕ) (h : a + b = n) (f : Fin n → M) :
    ∑ k : Fin n, f k
      = (∑ x : Fin a, f ⟨x.val, by have := x.isLt; omega⟩) + ∑ x : Fin b, f ⟨a + x.val, by have := x.isLt; omega⟩ := by
  subst h
  rw [Fin.sum_univ_add]
  rfl

/-- Three consecutive parts of extents `a`, `b`, `c`. -/
theorem sum_cut3 {M : Type*} [AddCommMonoid M] (a b c n : ℕ) (h : a + b + c = n) (f : Fin n → M) :
    ∑ k : Fin n, f k
      = ((∑ x : Fin a, f ⟨x.val, by have := x.isLt; omega⟩) + ∑ x : Fin b, f ⟨a + x.val, by have := x.isLt; omega⟩)
        + ∑ x : Fin c, f ⟨a + b + x.val, by have := x.isLt; omega⟩ := by
  rw [sum_cut (a + b) c n h f, sum_cut a b (a + b) rfl (fun k => f ⟨k.val, by have := k.isLt; omega⟩)]

/-- Four consecutive parts of extents `a`, `b`, `c`, `d`. -/
theorem sum_cut4 {M : Type*} [AddCommMonoid M] (a b c d n : ℕ) (h : a + b + c + d = n) (f : Fin n → M) :
    ∑ k : Fin n, f k
      = (((∑ x : Fin a, f ⟨x.val, by have := x.isLt; omega⟩) + ∑ x : Fin b, f ⟨a + x.val, by have := x.isLt; omega⟩)
        + ∑ x : Fin c, f ⟨a + b + x.val, by have := x.isLt; omega⟩)
        + ∑ x : Fin d, f ⟨a + b + c + x.val, by have := x.isLt; omega⟩ := by
  rw [sum_cut (a + b + c) d n h f,
    sum_cut3 a b c (a + b + c) rfl (fun k => f ⟨k.val, by have := k.isLt; omega⟩)]

end Cert.LibSumSplit
-- ==== Proof.EdgeSpec.lean ====
/-
  The edge layer as functions of whole arrays of extended reals.

  For `M` edges with source rows `s` and destination rows `d` (`[M, 128]` each), two `[128, 128]` weight blocks `ws`,
  `wd` and an attention column `wa` (`[128, 1]`):

    edge s d ws wd (e, o) = max (∑ k, s (e, k) * ws (k, o) + ∑ k, d (e, k) * wd (k, o)) 0
    attn x wa (e, 0)      = leaky (∑ o, x (e, o) * wa (o, 0)),   leaky a = a if a ≥ 0, else a * slope

  with `0` and `slope` the values of the two float words the programs carry. An entry of either depends on row `e` of the
  row operands only, so a block of rows of the result is the same function of that block of rows (`edge_rows`,
  `attn_rows`). When `ws`, `wd` are the two halves of the transposed `[128, 256]` weight matrix `W`, the two partial
  products add up to ONE dot product of length 256 of the concatenated row `(s | d)` with row `o` of `W`: a sum over
  `Fin 256` cut at position 128, which needs only that addition is commutative and associative (`edge_eq_rowsDot`).
-/
import proofs.«112423_j712964571355_2_alg».proof.Proof.LibPlainDot
import proofs.«112423_j712964571355_2_alg».proof.Proof.LibTransposedDot
import proofs.«112423_j712964571355_2_alg».proof.Proof.LibSumSplit

noncomputable section

namespace Cert.EdgeMlp

open Idealize.ShloMosaic Idealize.ShloMosaic.ValueIdx Cert.LibPlainDot Cert.LibTransposedDot

/-- The value of the float word zero. -/
abbrev zeroV : EReal := Ideal.ofBits .f32 0x00000000#32
/-- The value of the float word of the negative slope. -/
abbrev slopeV : EReal := Ideal.ofBits .f32 0x3C23D70A#32

/-- The rectified sum of the two partial products. -/
def edge {M : ℕ} (s d : (⟨2, ![M, 128]⟩ : Shape).Idx → EReal) (ws wd : (⟨2, ![128, 128]⟩ : Shape).Idx → EReal) :
    (⟨2, ![M, 128]⟩ : Shape).Idx → EReal :=
  fun j => max (rowsTimes s ws j + rowsTimes d wd j) zeroV

/-- The leaky rectifier on one value: the value itself when it compares `≥ 0`, its product with the slope otherwise. -/
def leaky (a : EReal) : EReal :=
  Scalar.select (FloatOps.cmpf (F := Ideal) (φ := .f32) .oge a zeroV) a (a * slopeV)

/-- The attention factor of every edge. -/
def attn {M : ℕ} (x : (⟨2, ![M, 128]⟩ : Shape).Idx → EReal) (wa : (⟨2, ![128, 1]⟩ : Shape).Idx → EReal) :
    (⟨2, ![M, 1]⟩ : Shape).Idx → EReal :=
  fun j => leaky (rowsTimes x wa j)

/-- Rows `o, …, o + R - 1` of `edge` are `edge` of those rows of the two row operands. -/
theorem edge_rows {M R : ℕ} (o : ℕ) (s d : (⟨2, ![M, 128]⟩ : Shape).Idx → EReal)
    (sb db : (⟨2, ![R, 128]⟩ : Shape).Idx → EReal) (ws wd : (⟨2, ![128, 128]⟩ : Shape).Idx → EReal)
    (hs : ∀ (y : Fin R) (k : Fin 128) (h : o + y.val < M), sb (ix2 y k) = s (ix2 (⟨o + y.val, h⟩ : Fin M) k))
    (hd : ∀ (y : Fin R) (k : Fin 128) (h : o + y.val < M), db (ix2 y k) = d (ix2 (⟨o + y.val, h⟩ : Fin M) k))
    (y : (⟨2, ![R, 128]⟩ : Shape).Idx) (i : (⟨2, ![M, 128]⟩ : Shape).Idx)
    (h0 : (i 0).val = o + (y 0).val) (h1 : (i 1).val = (y 1).val) :
    edge sb db ws wd y = edge s d ws wd i := by
  unfold edge
  rw [rowsTimes_rows o s sb ws hs y i h0 h1, rowsTimes_rows o d db wd hd y i h0 h1]

/-- Rows `o, …, o + R - 1` of `attn` are `attn` of those rows of its row operand. -/
theorem attn_rows {M R : ℕ} (o : ℕ) (x : (⟨2, ![M, 128]⟩ : Shape).Idx → EReal)
    (xb : (⟨2, ![R, 128]⟩ : Shape).Idx → EReal) (wa : (⟨2, ![128, 1]⟩ : Shape).Idx → EReal)
    (hx : ∀ (y : Fin R) (k : Fin 128) (h : o + y.val < M), xb (ix2 y k) = x (ix2 (⟨o + y.val, h⟩ : Fin M) k))
    (y : (⟨2, ![R, 1]⟩ : Shape).Idx) (i : (⟨2, ![M, 1]⟩ : Shape).Idx)
    (h0 : (i 0).val = o + (y 0).val) (h1 : (i 1).val = (y 1).val) :
    attn xb wa y = attn x wa i := by
  unfold attn
  rw [rowsTimes_rows o x xb wa hx y i h0 h1]

/-- The two together: rows of the attention factor of `edge` from rows of the row operands. -/
theorem attn_edge_rows {M R : ℕ} (o : ℕ) (s d : (⟨2, ![M, 128]⟩ : Shape).Idx → EReal)
    (sb db : (⟨2, ![R, 128]⟩ : Shape).Idx → EReal) (ws wd : (⟨2, ![128, 128]⟩ : Shape).Idx → EReal)
    (wa : (⟨2, ![128, 1]⟩ : Shape).Idx → EReal)
    (hs : ∀ (y : Fin R) (k : Fin 128) (h : o + y.val < M), sb (ix2 y k) = s (ix2 (⟨o + y.val, h⟩ : Fin M) k))
    (hd : ∀ (y : Fin R) (k : Fin 128) (h : o + y.val < M), db (ix2 y k) = d (ix2 (⟨o + y.val, h⟩ : Fin M) k))
    (y : (⟨2, ![R, 1]⟩ : Shape).Idx) (i : (⟨2, ![M, 1]⟩ : Shape).Idx)
    (h0 : (i 0).val = o + (y 0).val) (h1 : (i 1).val = (y 1).val) :
    attn (edge sb db ws wd) wa y = attn (edge s d ws wd) wa i :=
  attn_rows o (edge s d ws wd) (edge sb db ws wd) wa
    (fun y k h => edge_rows o s d sb db ws wd hs hd (ix2 y k) (ix2 (⟨o + y.val, h⟩ : Fin M) k) rfl rfl) y i h0 h1

/-- With `ws`, `wd` the two halves of the transposed weight matrix `W` and `cat` the rows `(s | d)` laid side by side,
    the two partial products are one dot product of length 256: `edge` is the rectified product of the rows of `cat`
    with the rows of `W`. -/
theorem edge_eq_rowsDot {M : ℕ} (s d : (⟨2, ![M, 128]⟩ : Shape).Idx → EReal)
    (ws wd : (⟨2, ![128, 128]⟩ : Shape).Idx → EReal) (W : (⟨2, ![128, 256]⟩ : Shape).Idx → EReal)
    (cat : (⟨2, ![M, 256]⟩ : Shape).Idx → EReal)
    (hws : ∀ (k o : Fin 128), ws (ix2 k o) = W (ix2 o (⟨k.val, by have := k.isLt; omega⟩ : Fin 256)))
    (hwd : ∀ (k o : Fin 128), wd (ix2 k o) = W (ix2 o (⟨128 + k.val, by have := k.isLt; omega⟩ : Fin 256)))
    (hc1 : ∀ (e : Fin M) (k : Fin 128), cat (ix2 e (⟨k.val, by have := k.isLt; omega⟩ : Fin 256)) = s (ix2 e k))
    (hc2 : ∀ (e : Fin M) (k : Fin 128), cat (ix2 e (⟨128 + k.val, by have := k.isLt; omega⟩ : Fin 256)) = d (ix2 e k))
    (j : (⟨2, ![M, 128]⟩ : Shape).Idx) :
    edge s d ws wd j = max (rowsDot cat W j) zeroV := by
  obtain ⟨p, q, rfl⟩ : ∃ (p : Fin M) (q : Fin 128), j = ix2 p q := ⟨j 0, j 1, eq_ix2 j⟩
  unfold edge
  rw [rowsTimes_apply, rowsTimes_apply, rowsDot_apply,
    Cert.LibSumSplit.sum_cut 128 128 256 rfl (fun k : Fin 256 => cat (ix2 p k) * W (ix2 q k))]
  refine congrArg (fun z => max z zeroV) (congrArg₂ (· + ·) ?_ ?_)
  · exact Finset.sum_congr rfl fun k _ => by rw [hws k q, hc1 p k]
  · exact Finset.sum_congr rfl fun k _ => by rw [hwd k q, hc2 p k]

end Cert.EdgeMlp

end
-- ==== Proof.KernelBody.lean ====
/-
  What the kernel body stores, at the ideal values.

  At one grid point the body loads a block of 8000 source rows and of 8000 destination rows, the two [128, 128] weight
  blocks and the [128, 1] attention column. Its first store is the rectified sum of the two matrix products (each
  accumulated from the zero splat): `edge` of the loaded blocks. Its second store multiplies that value (a change of float
  format in between is the identity on the extended reals) with the attention column and selects, by the comparison with
  zero, the product or its multiple by the slope: `attn` of the first store's value.
-/
import proofs.«112423_j712964571355_2_alg».proof.Proof.Gen.KernelIdeal.Skeleton
import proofs.«112423_j712964571355_2_alg».proof.Proof.EdgeSpec
import Idealize.ShloMosaic.Lib.Pipeline.Value

noncomputable section

namespace Cert.KernelIdeal.BodyValue

open Cert.KernelIdeal Cert.KernelIdeal.Gen Idealize.ShloMosaic Idealize.ShloMosaic.ValueIdx Cert.LibPlainDot Cert.EdgeMlp

/-- The printed dimension numbers of the body's two [8000, 128] by [128, 128] products are the plain ones. -/
theorem dot_rows_eq : dot_S8000x128_S128x128_S8000x128_1_0_0_1_n_n = DotDims.plain 8000 128 128 := rfl
/-- The printed dimension numbers of the body's [8000, 128] by [128, 1] product are the plain ones. -/
theorem dot_col_eq : dot_S8000x128_S128x1_S8000x1_1_0_0_1_n_n = DotDims.plain 8000 128 1 := rfl

/-- The first store's value is `edge` of the loaded blocks. -/
theorem pay1_eq (v0 v2 : Vec Ideal S8000x128 .bf16) (v4 v7 : Vec Ideal S128x128 .bf16) :
    k0_pay1 (F := Ideal) v0 v2 v4 v7 = edge v0 v2 v4 v7 := by
  unfold k0_pay1 edge
  simp only [shapeCast_self, matmul, dot_rows_eq, matmul_zero_plain]
  rfl

/-- The second store's value is `attn` of the first store's value and the loaded attention column. -/
theorem pay2_eq (v0 v2 : Vec Ideal S8000x128 .bf16) (v4 v7 : Vec Ideal S128x128 .bf16) (v15 : Vec Ideal S128x1 .bf16) :
    k0_pay2 (F := Ideal) v0 v2 v4 v7 v15 = attn (edge v0 v2 v4 v7) v15 := by
  unfold k0_pay2 attn
  rw [pay1_eq]
  simp only [shapeCast_self, matmul, dot_col_eq]
  rw [matmul_zero_plain none (truncf .bf16 (edge v0 v2 v4 v7) bitsLt_bf16_f32 : FVec Ideal ⟨2, ![8000, 128]⟩ .bf16) v15]
  rfl

end Cert.KernelIdeal.BodyValue

end
-- ==== Proof.KernelArray.lean ====
/-
  The kernel's two output arrays as whole-array functions of the arrays its windows read.

  The grid has 125 points; point `t` reads rows `8000 t, …, 8000 t + 7999` of the gathered source and destination
  arrays, the whole of the two weight blocks and of the attention column, and writes the same rows of the two outputs.
  Since an entry of `edge` / `attn` depends on its own row of the row operands only, the block a point writes back is
  that block of rows of `edge` / `attn` of the WHOLE arrays; the 125 blocks tile the outputs (row `r` lies in the block
  of point `r / 8000`), so after the run the outputs are those functions everywhere.
-/
import proofs.«112423_j712964571355_2_alg».proof.Proof.Gen.KernelIdeal.Value
import proofs.«112423_j712964571355_2_alg».proof.Proof.KernelBody

noncomputable section

namespace Cert.KernelIdeal.ArrayValue

open Cert.KernelIdeal Cert.KernelIdeal.Gen Idealize.ShloMosaic Idealize.ShloMosaic.TcCoe Idealize.SL.Sem
open Idealize.ShloMosaic.ValueIdx Cert.EdgeMlp
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The first output as the region finds its operands: `edge` of the two gathered arrays and the two weight blocks. -/
def edgeArr (c : Dev nD) : S1000000x128.Idx → EReal :=
  edge (M := 1000000) (V m c main_v7) (V m c main_v14) (V m c main_v17) (V m c main_v18)

/-- The second output: `attn` of the first and the attention column. -/
def attnArr (c : Dev nD) : S1000000x1.Idx → EReal :=
  attn (M := 1000000) (edgeArr m c) (V m c main_v20)

/-- The printed index maps over the grid: the row windows move with the outputs' row block, every other block index is
    zero, and the row block index stays below 125. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0
    ∧ win0_6.index t (0 : Fin 2) = win0_5.index t (0 : Fin 2) ∧ win0_6.index t (1 : Fin 2) = 0
    ∧ win0_5.index t (0 : Fin 2) ≤ 124 :=
  (by decide +kernel : ∀ t : Fin grid0.N, _)

/-- Every row block is some point's. -/
theorem idx_onto : ∀ q : Fin 125, ∃ t : Fin cfg0.N, win0_5.index t (0 : Fin 2) = q.val :=
  (by decide +kernel : ∀ q : Fin 125, ∃ t : Fin grid0.N, win0_5.index t (0 : Fin 2) = q.val)

/-! ## The input windows' blocks -/

/-- Row `y` of the source window's block at point `t` is row `8000 · (block index) + y` of the gathered source array. -/
theorem src_blk (c : Dev nD) (t : Fin cfg0.N) (y : Fin 8000) (k : Fin 128) (h : win0_5.index t (0 : Fin 2) * 8000 + y.val < 1000000) :
    iblk m c 0 t (ix2 y k) = V m c main_v7 (ix2 (⟨win0_5.index t (0 : Fin 2) * 8000 + y.val, h⟩ : Fin 1000000) k) := by
  obtain ⟨e00, e01, -⟩ := idx_facts t
  show V m c main_v7 (((cfg0.win 0).blk t).view.emb (ix2 y k)) = _
  refine congrArg _ (funext fun a => Fin.ext ?_)
  match a with
  | ⟨0, _⟩ => show win0_0.index t (0 : Fin 2) * 8000 + 1 * y.val = win0_5.index t (0 : Fin 2) * 8000 + y.val; omega
  | ⟨1, _⟩ => show win0_0.index t (1 : Fin 2) * 128 + 1 * k.val = k.val; omega

/-- The same for the destination window. -/
theorem dst_blk (c : Dev nD) (t : Fin cfg0.N) (y : Fin 8000) (k : Fin 128) (h : win0_5.index t (0 : Fin 2) * 8000 + y.val < 1000000) :
    iblk m c 1 t (ix2 y k) = V m c main_v14 (ix2 (⟨win0_5.index t (0 : Fin 2) * 8000 + y.val, h⟩ : Fin 1000000) k) := by
  obtain ⟨-, -, e10, e11, -⟩ := idx_facts t
  show V m c main_v14 (((cfg0.win 1).blk t).view.emb (ix2 y k)) = _
  refine congrArg _ (funext fun a => Fin.ext ?_)
  match a with
  | ⟨0, _⟩ => show win0_1.index t (0 : Fin 2) * 8000 + 1 * y.val = win0_5.index t (0 : Fin 2) * 8000 + y.val; omega
  | ⟨1, _⟩ => show win0_1.index t (1 : Fin 2) * 128 + 1 * k.val = k.val; omega

/-- The first weight window's block is its whole array at every point. -/
theorem ws_blk (c : Dev nD) (t : Fin cfg0.N) : iblk m c 2 t = V m c main_v17 := by
  obtain ⟨-, -, -, -, e20, e21, -⟩ := idx_facts t
  funext y
  show V m c main_v17 (((cfg0.win 2).blk t).view.emb y) = V m c main_v17 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second weight window's block is its whole array at every point. -/
theorem wd_blk (c : Dev nD) (t : Fin cfg0.N) : iblk m c 3 t = V m c main_v18 := by
  obtain ⟨-, -, -, -, -, -, e30, e31, -⟩ := idx_facts t
  funext y
  show V m c main_v18 (((cfg0.win 3).blk t).view.emb y) = V m c main_v18 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The attention column's block is its whole array at every point. -/
theorem wa_blk (c : Dev nD) (t : Fin cfg0.N) : iblk m c 4 t = V m c main_v20 := by
  obtain ⟨-, -, -, -, -, -, -, -, e40, e41, -⟩ := idx_facts t
  funext y
  show V m c main_v20 (((cfg0.win 4).blk t).view.emb y) = V m c main_v20 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 1 + 1 * (y 1).val = (y 1).val; omega

/-! ## What each point writes back -/

/-- Point `t` writes back block `t` of `edgeArr`. -/
theorem flushed5_eq (c : Dev nD) (t : Fin cfg0.N) :
    (dats m 0 c).flushed 5 t = ((cfg0.win 5).blk t).view.read (Elt Ideal) (edgeArr m c) := by
  rw [Value.flushed5]
  unfold out0_5
  rw [View.canon_unit_zero zero_offsets]
  simp only [View.ld_unit_zero (S := S8000x128) zero_offsets, View.ld_unit_zero (S := S128x128) zero_offsets]
  rw [BodyValue.pay1_eq, ws_blk, wd_blk]
  obtain ⟨-, -, -, -, -, -, -, -, -, -, e51, -⟩ := idx_facts t
  funext y
  show edge (iblk m c 0 t) (iblk m c 1 t) (V m c main_v17) (V m c main_v18) y
    = edge (M := 1000000) (V m c main_v7) (V m c main_v14) (V m c main_v17) (V m c main_v18) (((cfg0.win 5).blk t).view.emb y)
  refine edge_rows (win0_5.index t (0 : Fin 2) * 8000) (V m c main_v7) (V m c main_v14) (iblk m c 0 t) (iblk m c 1 t) (V m c main_v17) (V m c main_v18)
    (fun y k h => src_blk m c t y k h) (fun y k h => dst_blk m c t y k h) y (((cfg0.win 5).blk t).view.emb y) ?_ ?_
  · show win0_5.index t (0 : Fin 2) * 8000 + 1 * (y 0).val = win0_5.index t (0 : Fin 2) * 8000 + (y 0).val; omega
  · show win0_5.index t (1 : Fin 2) * 128 + 1 * (y 1).val = (y 1).val; omega

attribute [local irreducible] Cert.EdgeMlp.attn in
/-- Point `t` writes back block `t` of `attnArr`. -/
theorem flushed6_eq (c : Dev nD) (t : Fin cfg0.N) :
    (dats m 0 c).flushed 6 t = ((cfg0.win 6).blk t).view.read (Elt Ideal) (attnArr m c) := by
  rw [Value.flushed6]
  unfold out0_6
  rw [View.canon_unit_zero zero_offsets]
  simp only [View.ld_unit_zero (S := S8000x128) zero_offsets, View.ld_unit_zero (S := S128x128) zero_offsets,
    View.ld_unit_zero (S := S128x1) zero_offsets]
  rw [BodyValue.pay2_eq, ws_blk, wd_blk, wa_blk]
  obtain ⟨-, -, -, -, -, -, -, -, -, -, -, e60, e61, -⟩ := idx_facts t
  funext y
  show attn (M := 8000) (edge (M := 8000) (iblk m c 0 t) (iblk m c 1 t) (V m c main_v17) (V m c main_v18)) (V m c main_v20) y
    = attn (M := 1000000) (edge (M := 1000000) (V m c main_v7) (V m c main_v14) (V m c main_v17) (V m c main_v18)) (V m c main_v20)
        (((cfg0.win 6).blk t).view.emb y)
  refine attn_edge_rows (M := 1000000) (R := 8000) (win0_5.index t (0 : Fin 2) * 8000) (V m c main_v7) (V m c main_v14) (iblk m c 0 t) (iblk m c 1 t)
    (V m c main_v17) (V m c main_v18) (V m c main_v20) (fun y k h => src_blk m c t y k h) (fun y k h => dst_blk m c t y k h)
    y (((cfg0.win 6).blk t).view.emb y) ?_ ?_
  · show win0_6.index t (0 : Fin 2) * 8000 + 1 * (y 0).val = win0_5.index t (0 : Fin 2) * 8000 + (y 0).val; omega
  · show win0_6.index t (1 : Fin 2) * 1 + 1 * (y 1).val = (y 1).val; omega

/-! ## The blocks tile the outputs -/

theorem mem_blk5 (t : Fin cfg0.N) (i : S1000000x128.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v21_0).slice (win0_5.rect t)).set ↔ _
  rw [View.set_slice_whole, Rect.mem_set_unit]
  exact Iff.rfl

theorem mem_blk6 (t : Fin cfg0.N) (i : S1000000x1.Idx) :
    i ∈ ((cfg0.win 6).blk t).view.set ↔ ∀ a : Fin 2, win0_6.index t a * S8000x1.size a ≤ (i a).val ∧ (i a).val < win0_6.index t a * S8000x1.size a + S8000x1.size a := by
  show i ∈ ((View.whole main_v21_1).slice (win0_6.rect t)).set ↔ _
  rw [View.set_slice_whole, Rect.mem_set_unit]
  exact Iff.rfl

/-- Row `r` of the first output lies in the block of the point whose row block index is `r / 8000`. -/
theorem cover5 (i : S1000000x128.Idx) :
    ∃ t : Fin cfg0.N, (cfg0.win 5).flush t = true ∧ i ∈ ((cfg0.win 5).blk t).view.set := by
  have hi0 : (i 0).val < 1000000 := (i 0).isLt
  have hi1 : (i 1).val < 128 := (i 1).isLt
  obtain ⟨t, ht⟩ := idx_onto ⟨(i 0).val / 8000, by omega⟩
  have ht' : win0_5.index t (0 : Fin 2) = (i 0).val / 8000 := ht
  obtain ⟨-, -, -, -, -, -, -, -, -, -, e51, -⟩ := idx_facts t
  refine ⟨t, flush0_5 t, ?_⟩
  rw [mem_blk5]
  intro a
  match a with
  | ⟨0, _⟩ => show win0_5.index t (0 : Fin 2) * 8000 ≤ (i 0).val ∧ (i 0).val < win0_5.index t (0 : Fin 2) * 8000 + 8000; omega
  | ⟨1, _⟩ => show win0_5.index t (1 : Fin 2) * 128 ≤ (i 1).val ∧ (i 1).val < win0_5.index t (1 : Fin 2) * 128 + 128; omega

/-- The same for the second output. -/
theorem cover6 (i : S1000000x1.Idx) :
    ∃ t : Fin cfg0.N, (cfg0.win 6).flush t = true ∧ i ∈ ((cfg0.win 6).blk t).view.set := by
  have hi0 : (i 0).val < 1000000 := (i 0).isLt
  have hi1 : (i 1).val < 1 := (i 1).isLt
  obtain ⟨t, ht⟩ := idx_onto ⟨(i 0).val / 8000, by omega⟩
  have ht' : win0_5.index t (0 : Fin 2) = (i 0).val / 8000 := ht
  obtain ⟨-, -, -, -, -, -, -, -, -, -, -, e60, e61, -⟩ := idx_facts t
  refine ⟨t, flush0_6 t, ?_⟩
  rw [mem_blk6]
  intro a
  match a with
  | ⟨0, _⟩ => show win0_6.index t (0 : Fin 2) * 8000 ≤ (i 0).val ∧ (i 0).val < win0_6.index t (0 : Fin 2) * 8000 + 8000; omega
  | ⟨1, _⟩ => show win0_6.index t (1 : Fin 2) * 1 ≤ (i 1).val ∧ (i 1).val < win0_6.index t (1 : Fin 2) * 1 + 1; omega

/-! ## The arrays after the run -/

theorem final5 (c : Dev nD) : (dats m 0 c).arrAt 5 cfg0.N = edgeArr m c :=
  (dats m 0 c).arrAt_eq_of_cover 5 (edgeArr m c) (fun t _ => flushed5_eq m c t) cover5

theorem final6 (c : Dev nD) : (dats m 0 c).arrAt 6 cfg0.N = attnArr m c :=
  (dats m 0 c).arrAt_eq_of_cover 6 (attnArr m c) (fun t _ => flushed6_eq m c t) cover6

/-- The kernel program's run: each output array at its function of the arrays the region finds, the arguments unchanged. -/
theorem run : θ_run defs (onTc (τ := τ) (main (F := Ideal))) ⟨m, fun _ => 0, ρ⟩ fun r => ∀ c : Dev nD,
      r.2.mem ((c : Thread nD τ).loc main_v21_0) = edgeArr m c
      ∧ r.2.mem ((c : Thread nD τ).loc main_v21_1) = attnArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Value.run_blocks m ρ)

end Cert.KernelIdeal.ArrayValue

end
-- ==== Proof.RefRun.lean ====
/-
  The reference's host program as a list of its operations, and its run read back.

  The reference gathers the source and destination rows of the node table (indices below zero moved up by the table's
  50000 rows first, as array indexing does), lays the two gathered arrays side by side, multiplies the [E, 256] result with
  the transposed [128, 256] weight matrix, rectifies, multiplies with the transposed [1, 128] attention row, and applies the
  leaky rectifier. The two rectifiers are functions of the module, called once each: their operations are listed at the
  call sites over the calls' own buffers. Every weakly fair execution ends with the two results at the composed terms
  `edgeOf` and `attnOf` of the arguments, the arguments unchanged.
-/
import proofs.«112423_j712964571355_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The gather's start indices from an index vector: an index below zero is moved up by the number of rows, and the vector
    becomes a column. -/
def startsOf (a : (⟨S1000000, .i32⟩ : BufTy).Contents (Elt F)) : (⟨S1000000x1, .i32⟩ : BufTy).Contents (Elt F) :=
  broadcastInDim S1000000x1 ![0] bcast_S1000000_S1000000x1_0
    (select (cmpi .slt a (broadcastInDim S1000000 ![] bcast_S_S1000000 (constantI S_ 32 0#32)))
      (addi a (broadcastInDim S1000000 ![] bcast_S_S1000000 (constantI S_ 32 50000#32))) a)

/-- The rows of the node table an index vector names. -/
def rowsOf (x : (⟨S50000x128, .f32⟩ : BufTy).Contents (Elt F)) (a : (⟨S1000000, .i32⟩ : BufTy).Contents (Elt F)) :
    (⟨S1000000x128, .f32⟩ : BufTy).Contents (Elt F) :=
  Host.gather gather_S50000x128_S1000000x1_S1000000x128_1_0_n_n_0_1_1128 x (startsOf a)

/-- The first result from two gathered arrays and the weight matrix. -/
def edgeOf (g1 g2 : (⟨S1000000x128, .f32⟩ : BufTy).Contents (Elt F)) (w : (⟨S128x256, .f32⟩ : BufTy).Contents (Elt F)) :
    (⟨S1000000x128, .f32⟩ : BufTy).Contents (Elt F) :=
  maximumf (Host.dotGeneral dot_S1000000x256_S128x256_S1000000x128_1_1_0_0_n_n none
      (concatenate S1000000x256 1 [⟨S1000000x128, g1⟩, ⟨S1000000x128, g2⟩] concatenates_S1000000x128_S1000000x128_S1000000x256_d1) w)
    (broadcastInDim S1000000x128 ![] bcast_S_S1000000x128 (constant S_ .f32 0x00000000#32))

/-- The second result from the first and the attention row. -/
def attnOf (e : (⟨S1000000x128, .f32⟩ : BufTy).Contents (Elt F)) (wa : (⟨S1x128, .f32⟩ : BufTy).Contents (Elt F)) :
    (⟨S1000000x1, .f32⟩ : BufTy).Contents (Elt F) :=
  select (cmpf .oge (Host.dotGeneral dot_S1000000x128_S1x128_S1000000x1_1_1_0_0_n_n none e wa)
      (broadcastInDim S1000000x1 ![] bcast_S_S1000000x1 (constant S_ .f32 0x00000000#32)))
    (Host.dotGeneral dot_S1000000x128_S1x128_S1000000x1_1_1_0_0_n_n none e wa)
    (mulf (broadcastInDim S1000000x1 ![] bcast_S_S1000000x1 (constant S_ .f32 0x3C23D70A#32))
      (Host.dotGeneral dot_S1000000x128_S1x128_S1000000x1_1_1_0_0_n_n none e wa))

/-- @main's operations in order, the two rectifiers' operations at their calls. -/
abbrev ops : List (HloOp τ sig (Elt F)) :=
  [ nullary main_c (constantI S_ 32 0#32),
    unary main_c main_v0 (broadcastInDim S1000000 ![] bcast_S_S1000000 : (⟨S_, .i32⟩ : BufTy).Contents (Elt F) → (⟨S1000000, .i32⟩ : BufTy).Contents (Elt F)),
    binary main_arg1 main_v0 main_v1 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 50000#32),
    unary main_c_0 main_v2 (broadcastInDim S1000000 ![] bcast_S_S1000000 : (⟨S_, .i32⟩ : BufTy).Contents (Elt F) → (⟨S1000000, .i32⟩ : BufTy).Contents (Elt F)),
    binary main_arg1 main_v2 main_v3 (addi : (⟨S1000000, .i32⟩ : BufTy).Contents (Elt F) → (⟨S1000000, .i32⟩ : BufTy).Contents (Elt F) → (⟨S1000000, .i32⟩ : BufTy).Contents (Elt F)),
    ternary main_v1 main_v3 main_arg1 main_v4 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v4 main_v5 (broadcastInDim S1000000x1 ![0] bcast_S1000000_S1000000x1_0 : (⟨S1000000, .i32⟩ : BufTy).Contents (Elt F) → (⟨S1000000x1, .i32⟩ : BufTy).Contents (Elt F)),
    binary main_arg0 main_v5 main_v6 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F)),
    nullary main_c_1 (constantI S_ 32 0#32),
    unary main_c_1 main_v7 (broadcastInDim S1000000 ![] bcast_S_S1000000 : (⟨S_, .i32⟩ : BufTy).Contents (Elt F) → (⟨S1000000, .i32⟩ : BufTy).Contents (Elt F)),
    binary main_arg2 main_v7 main_v8 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 50000#32),
    unary main_c_2 main_v9 (broadcastInDim S1000000 ![] bcast_S_S1000000 : (⟨S_, .i32⟩ : BufTy).Contents (Elt F) → (⟨S1000000, .i32⟩ : BufTy).Contents (Elt F)),
    binary main_arg2 main_v9 main_v10 (addi : (⟨S1000000, .i32⟩ : BufTy).Contents (Elt F) → (⟨S1000000, .i32⟩ : BufTy).Contents (Elt F) → (⟨S1000000, .i32⟩ : BufTy).Contents (Elt F)),
    ternary main_v8 main_v10 main_arg2 main_v11 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v11 main_v12 (broadcastInDim S1000000x1 ![0] bcast_S1000000_S1000000x1_0 : (⟨S1000000, .i32⟩ : BufTy).Contents (Elt F) → (⟨S1000000x1, .i32⟩ : BufTy).Contents (Elt F)),
    binary main_arg0 main_v12 main_v13 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F)),
    binary main_v6 main_v13 main_v14 ((fun a b => concatenate S1000000x256 1 [⟨S1000000x128, a⟩, ⟨S1000000x128, b⟩] concatenates_S1000000x128_S1000000x128_S1000000x256_d1) : (⟨S1000000x128, .f32⟩ : BufTy).Contents (Elt F) → (⟨S1000000x128, .f32⟩ : BufTy).Contents (Elt F) → (⟨S1000000x256, .f32⟩ : BufTy).Contents (Elt F)),
    binary main_v14 main_arg3 main_v15 ((fun l r => Host.dotGeneral dot_S1000000x256_S128x256_S1000000x128_1_1_0_0_n_n none l r) : (⟨S1000000x256, .f32⟩ : BufTy).Contents (Elt F) → (⟨S128x256, .f32⟩ : BufTy).Contents (Elt F) → (⟨S1000000x128, .f32⟩ : BufTy).Contents (Elt F)),
    TRef.nullary main_call0.cst (constant S_ .f32 0x00000000#32),
    TRef.unary main_call0.cst main_call0.v0 (broadcastInDim S1000000x128 ![] bcast_S_S1000000x128),
    TRef.binary (.of main_v15) main_call0.v0 main_call0.v1 maximumf,
    binary main_v16 main_arg4 main_v17 ((fun l r => Host.dotGeneral dot_S1000000x128_S1x128_S1000000x1_1_1_0_0_n_n none l r) : (⟨S1000000x128, .f32⟩ : BufTy).Contents (Elt F) → (⟨S1x128, .f32⟩ : BufTy).Contents (Elt F) → (⟨S1000000x1, .f32⟩ : BufTy).Contents (Elt F)),
    nullary main_cst (constant S_ .f32 0x3C23D70A#32),
    TRef.nullary main_call1.cst (constant S_ .f32 0x00000000#32),
    TRef.unary main_call1.cst main_call1.v0 (broadcastInDim S1000000x1 ![] bcast_S_S1000000x1),
    TRef.binary (.of main_v17) main_call1.v0 main_call1.v1 (cmpf .oge),
    TRef.unary (.of main_cst) main_call1.v2 id,
    TRef.unary main_call1.v2 main_call1.v3 (broadcastInDim S1000000x1 ![] bcast_S_S1000000x1),
    TRef.binary main_call1.v3 (.of main_v17) main_call1.v4 mulf,
    TRef.ternary main_call1.v1 (.of main_v17) main_call1.v4 main_call1.call0.v0 select ]

set_option maxRecDepth 2048 in
/-- @main is that straight line: the called functions unfolded at their calls, sequencing re-associated. -/
theorem main_eq (c : Dev nD) : main (F := F) c = seq ops := by
  simp only [main, fn_relu.body, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

/-- Every buffer ends at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The first result's fold is `edgeOf` of the gathered rows and the weight matrix. -/
theorem res_edge (V : Valuation τ sig (Elt F)) :
    after ops V (main_v16 : DevRef τ sig)
      = edgeOf (rowsOf (V (main_arg0 : DevRef τ sig)) (V (main_arg1 : DevRef τ sig)))
          (rowsOf (V (main_arg0 : DevRef τ sig)) (V (main_arg2 : DevRef τ sig))) (V (main_arg3 : DevRef τ sig)) := by
  unfold edgeOf rowsOf startsOf
  after_results
  try rfl

set_option maxHeartbeats 1000000 in
/-- The second result's fold is `attnOf` of the first result's and the attention row. -/
theorem res_attn (V : Valuation τ sig (Elt F)) :
    after ops V (main_v18 : DevRef τ sig)
      = attnOf (edgeOf (rowsOf (V (main_arg0 : DevRef τ sig)) (V (main_arg1 : DevRef τ sig)))
          (rowsOf (V (main_arg0 : DevRef τ sig)) (V (main_arg2 : DevRef τ sig))) (V (main_arg3 : DevRef τ sig)))
          (V (main_arg4 : DevRef τ sig)) := by
  unfold attnOf edgeOf rowsOf startsOf
  after_results_simp
  try rfl

theorem res_arg0 (V : Valuation τ sig (Elt F)) : after ops V (main_arg0 : DevRef τ sig) = V (main_arg0 : DevRef τ sig) := by
  after_results
theorem res_arg1 (V : Valuation τ sig (Elt F)) : after ops V (main_arg1 : DevRef τ sig) = V (main_arg1 : DevRef τ sig) := by
  after_results
theorem res_arg2 (V : Valuation τ sig (Elt F)) : after ops V (main_arg2 : DevRef τ sig) = V (main_arg2 : DevRef τ sig) := by
  after_results
theorem res_arg3 (V : Valuation τ sig (Elt F)) : after ops V (main_arg3 : DevRef τ sig) = V (main_arg3 : DevRef τ sig) := by
  after_results
theorem res_arg4 (V : Valuation τ sig (Elt F)) : after ops V (main_arg4 : DevRef τ sig) = V (main_arg4 : DevRef τ sig) := by
  after_results

/-- The run: both results at their composed terms of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
        = edgeOf (rowsOf (m ((c.tc : Thread nD τ).loc main_arg0)) (m ((c.tc : Thread nD τ).loc main_arg1))) (rowsOf (m ((c.tc : Thread nD τ).loc main_arg0)) (m ((c.tc : Thread nD τ).loc main_arg2))) (m ((c.tc : Thread nD τ).loc main_arg3))
      ∧ r.2.mem ((c.tc : Thread nD τ).loc main_v18)
        = attnOf (edgeOf (rowsOf (m ((c.tc : Thread nD τ).loc main_arg0)) (m ((c.tc : Thread nD τ).loc main_arg1))) (rowsOf (m ((c.tc : Thread nD τ).loc main_arg0)) (m ((c.tc : Thread nD τ).loc main_arg2))) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v16).trans (res_edge _), (h c main_v18).trans (res_attn _),
      (h c main_arg0).trans (res_arg0 _), (h c main_arg1).trans (res_arg1 _), (h c main_arg2).trans (res_arg2 _),
      (h c main_arg3).trans (res_arg3 _), (h c main_arg4).trans (res_arg4 _)⟩)
    (run_fold m ρ)

end Cert.ReferenceIdeal.HostRun

end
-- ==== Proof.KernelHost.lean ====
/-
  The arrays the kernel's windows read, as the host operations before the launch leave them.

  Before the launch the host program changes the node table's float format, gathers its rows named by the source and by
  the destination index vector (an index below zero moved up by the table's 50000 rows first, the vector made a column),
  transposes the [128, 256] weight matrix, changes its format and cuts it into its first and last 128 rows, and transposes
  the [1, 128] attention row into a column. Each window's array is the composed term of those operations of the
  arguments.
-/
import proofs.«112423_j712964571355_2_alg».proof.Proof.Gen.KernelIdeal.Frame
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- The gather's start indices from an index vector: an index below zero is moved up by the number of rows, and the vector
    becomes a column. -/
def startsOf (a : (⟨S1000000, .i32⟩ : BufTy).Contents (Elt F)) : (⟨S1000000x1, .i32⟩ : BufTy).Contents (Elt F) :=
  broadcastInDim S1000000x1 ![0] bcast_S1000000_S1000000x1_0
    (select (cmpi .slt a (broadcastInDim S1000000 ![] bcast_S_S1000000 (constantI S_ 32 0#32)))
      (addi a (broadcastInDim S1000000 ![] bcast_S_S1000000 (constantI S_ 32 50000#32))) a)

/-- The rows an index vector names, of the node table in the narrower float format. -/
def rowsOf (x : (⟨S50000x128, .f32⟩ : BufTy).Contents (Elt F)) (a : (⟨S1000000, .i32⟩ : BufTy).Contents (Elt F)) :
    (⟨S1000000x128, .bf16⟩ : BufTy).Contents (Elt F) :=
  Host.gather gather_S50000x128_S1000000x1_S1000000x128_1_0_n_n_0_1_1128 (truncf .bf16 x bitsLt_bf16_f32) (startsOf a)

/-- The transposed weight matrix in the narrower format. -/
def weightT (w : (⟨S128x256, .f32⟩ : BufTy).Contents (Elt F)) : (⟨S256x128, .bf16⟩ : BufTy).Contents (Elt F) :=
  truncf .bf16 (transpose S256x128 [1, 0] w transposes_S128x256_S256x128_1_0) bitsLt_bf16_f32

/-- Its first 128 rows. -/
def weightSrc (w : (⟨S128x256, .f32⟩ : BufTy).Contents (Elt F)) : (⟨S128x128, .bf16⟩ : BufTy).Contents (Elt F) :=
  extractStridedSlice S128x128 ![0, 0] (weightT w) slices_S256x128_S128x128_0_0

/-- Its last 128 rows. -/
def weightDst (w : (⟨S128x256, .f32⟩ : BufTy).Contents (Elt F)) : (⟨S128x128, .bf16⟩ : BufTy).Contents (Elt F) :=
  extractStridedSlice S128x128 ![128, 0] (weightT w) slices_S256x128_S128x128_128_0

/-- The attention row as a column in the narrower format. -/
def attnCol (wa : (⟨S1x128, .f32⟩ : BufTy).Contents (Elt F)) : (⟨S128x1, .bf16⟩ : BufTy).Contents (Elt F) :=
  truncf .bf16 (transpose S128x1 [1, 0] wa transposes_S1x128_S128x1_1_0) bitsLt_bf16_f32

variable (m : (ℓ : Loc nD τ sig) → Buf (Elt F) ℓ)

theorem V_src (c : Dev nD) : V m c main_v7 = rowsOf (m ((c : Thread nD τ).loc main_arg0)) (m ((c : Thread nD τ).loc main_arg1)) := by
  unfold rowsOf startsOf
  dsimp only [Gen.V, Gen.hostOps0]
  after_results

theorem V_dst (c : Dev nD) : V m c main_v14 = rowsOf (m ((c : Thread nD τ).loc main_arg0)) (m ((c : Thread nD τ).loc main_arg2)) := by
  unfold rowsOf startsOf
  dsimp only [Gen.V, Gen.hostOps0]
  after_results

theorem V_ws (c : Dev nD) : V m c main_v17 = weightSrc (m ((c : Thread nD τ).loc main_arg3)) := by
  unfold weightSrc weightT
  dsimp only [Gen.V, Gen.hostOps0]
  after_results

theorem V_wd (c : Dev nD) : V m c main_v18 = weightDst (m ((c : Thread nD τ).loc main_arg3)) := by
  unfold weightDst weightT
  dsimp only [Gen.V, Gen.hostOps0]
  after_results

theorem V_wa (c : Dev nD) : V m c main_v20 = attnCol (m ((c : Thread nD τ).loc main_arg4)) := by
  unfold attnCol
  dsimp only [Gen.V, Gen.hostOps0]
  after_results

end Cert.KernelIdeal.HostValue

end
-- ==== Proof.Bridge.lean ====
/-
  The two programs' host terms meet the specification.

  Kernel side: read at an index, the first / last 128 rows of the transposed weight matrix are `ws (k, o) = W (o, k)`
  and `wd (k, o) = W (o, 128 + k)`, and the attention column is `wa (k, 0) = Wa (0, k)` (a change of float format is the
  identity on the extended reals).
  Reference side: the product of the side-by-side rows `(g1 | g2)` with the rows of `W`, rectified, is `edge g1 g2 ws wd`
  (the dot product of length 256 cut at 128), and the product with the attention row, through the leaky rectifier, is
  `attn` with that column; the reference multiplies the slope on the left where the kernel multiplies it on the right,
  and multiplication of extended reals is commutative.
  The gathered rows are one function on both sides: the kernel gathers from the table after the change of format, which
  changes nothing here, with the same start indices.
-/
import proofs.«112423_j712964571355_2_alg».proof.Proof.RefRun
import proofs.«112423_j712964571355_2_alg».proof.Proof.KernelHost
import proofs.«112423_j712964571355_2_alg».proof.Proof.EdgeSpec
import Idealize.ShloMosaic.Lib.Pipeline.Value
import Idealize.ShloMosaic.Lib.ValueLayout

noncomputable section

namespace Cert.Bridge

open Idealize.ShloMosaic Idealize.ShloMosaic.ValueIdx Cert.LibPlainDot Cert.LibTransposedDot Cert.EdgeMlp

/-! ## The kernel's weight blocks at an index -/

theorem weightSrc_apply (W : (⟨2, ![128, 256]⟩ : Shape).Idx → EReal) (k o : Fin 128) :
    Cert.KernelIdeal.HostValue.weightSrc (F := Ideal) W (ix2 k o) = W (ix2 o (⟨k.val, by have := k.isLt; omega⟩ : Fin 256)) := by
  unfold Cert.KernelIdeal.HostValue.weightSrc Cert.KernelIdeal.HostValue.weightT
  refine (slice2_axis0_apply 0 _ _ k o (⟨k.val, by have := k.isLt; omega⟩ : Fin 256) (Nat.zero_add _).symm).trans ?_
  exact transpose_ix2_apply W _ _ o

theorem weightDst_apply (W : (⟨2, ![128, 256]⟩ : Shape).Idx → EReal) (k o : Fin 128) :
    Cert.KernelIdeal.HostValue.weightDst (F := Ideal) W (ix2 k o) = W (ix2 o (⟨128 + k.val, by have := k.isLt; omega⟩ : Fin 256)) := by
  unfold Cert.KernelIdeal.HostValue.weightDst Cert.KernelIdeal.HostValue.weightT
  refine (slice2_axis0_apply 128 _ _ k o (⟨128 + k.val, by have := k.isLt; omega⟩ : Fin 256) rfl).trans ?_
  exact transpose_ix2_apply W _ _ o

theorem attnCol_apply (Wa : (⟨2, ![1, 128]⟩ : Shape).Idx → EReal) (k : Fin 128) (u : Fin 1) :
    Cert.KernelIdeal.HostValue.attnCol (F := Ideal) Wa (ix2 k u) = Wa (ix2 u k) := by
  unfold Cert.KernelIdeal.HostValue.attnCol
  exact transpose_ix2_apply Wa _ k u

/-! ## The reference's terms -/

theorem ref_dot_rows_eq :
    Cert.ReferenceIdeal.dot_S1000000x256_S128x256_S1000000x128_1_1_0_0_n_n = DotDims.transposedRhs 1000000 256 128 := rfl
theorem ref_dot_col_eq :
    Cert.ReferenceIdeal.dot_S1000000x128_S1x128_S1000000x1_1_1_0_0_n_n = DotDims.transposedRhs 1000000 128 1 := rfl

/-- The reference's first result is `edge` of the two gathered arrays and the kernel's two weight blocks. -/
theorem ref_edge_eq (g1 g2 : (⟨2, ![1000000, 128]⟩ : Shape).Idx → EReal) (W : (⟨2, ![128, 256]⟩ : Shape).Idx → EReal) :
    Cert.ReferenceIdeal.HostRun.edgeOf (F := Ideal) g1 g2 W
      = edge (M := 1000000) g1 g2 (Cert.KernelIdeal.HostValue.weightSrc (F := Ideal) W)
          (Cert.KernelIdeal.HostValue.weightDst (F := Ideal) W) := by
  funext j
  have hc1 : ∀ (e : Fin 1000000) (k : Fin 128),
      concatenate Cert.ReferenceIdeal.S1000000x256 1 [⟨Cert.ReferenceIdeal.S1000000x128, g1⟩, ⟨Cert.ReferenceIdeal.S1000000x128, g2⟩]
        Cert.ReferenceIdeal.Facts₀.concatenates_S1000000x128_S1000000x128_S1000000x256_d1
        (ix2 e (⟨k.val, by have := k.isLt; omega⟩ : Fin 256)) = g1 (ix2 e k) := fun e k =>
    concatenate_pair_apply_left (t := Cert.ReferenceIdeal.S1000000x256) (s₁ := Cert.ReferenceIdeal.S1000000x128)
      (s₂ := Cert.ReferenceIdeal.S1000000x128) 1 g1 g2 _ (ix2 e (⟨k.val, by have := k.isLt; omega⟩ : Fin 256)) rfl (ix2 e k)
      (fun b => match b with | ⟨0, _⟩ => rfl | ⟨1, _⟩ => rfl)
  have hc2 : ∀ (e : Fin 1000000) (k : Fin 128),
      concatenate Cert.ReferenceIdeal.S1000000x256 1 [⟨Cert.ReferenceIdeal.S1000000x128, g1⟩, ⟨Cert.ReferenceIdeal.S1000000x128, g2⟩]
        Cert.ReferenceIdeal.Facts₀.concatenates_S1000000x128_S1000000x128_S1000000x256_d1
        (ix2 e (⟨128 + k.val, by have := k.isLt; omega⟩ : Fin 256)) = g2 (ix2 e k) := fun e k =>
    concatenate_pair_apply_right (t := Cert.ReferenceIdeal.S1000000x256) (s₁ := Cert.ReferenceIdeal.S1000000x128)
      (s₂ := Cert.ReferenceIdeal.S1000000x128) 1 g1 g2 _ (ix2 e (⟨128 + k.val, by have := k.isLt; omega⟩ : Fin 256)) rfl rfl (ix2 e k)
      (fun b hb => match b, hb with | ⟨0, _⟩, _ => rfl | ⟨1, _⟩, hb => absurd rfl hb)
      (by show k.val + 128 = 128 + k.val; omega)
  refine Eq.trans ?_ (edge_eq_rowsDot g1 g2 _ _ W _ (weightSrc_apply W) (weightDst_apply W) hc1 hc2 j).symm
  unfold Cert.ReferenceIdeal.HostRun.edgeOf
  simp only [Host.dotGeneral, ref_dot_rows_eq, dotGeneral_transposedRhs]
  rfl

/-- The reference's second result is `attn` of its first result and the kernel's attention column. -/
theorem ref_attn_eq (x : (⟨2, ![1000000, 128]⟩ : Shape).Idx → EReal) (Wa : (⟨2, ![1, 128]⟩ : Shape).Idx → EReal) :
    Cert.ReferenceIdeal.HostRun.attnOf (F := Ideal) x Wa
      = attn (M := 1000000) x (Cert.KernelIdeal.HostValue.attnCol (F := Ideal) Wa) := by
  funext j
  obtain ⟨p, q, rfl⟩ : ∃ (p : Fin 1000000) (q : Fin 1), j = ix2 p q := ⟨j 0, j 1, eq_ix2 j⟩
  have hdot : rowsDot x Wa (ix2 p q) = rowsTimes x (Cert.KernelIdeal.HostValue.attnCol (F := Ideal) Wa) (ix2 p q) := by
    rw [rowsDot_apply, rowsTimes_apply]
    exact Finset.sum_congr rfl fun k _ => by rw [attnCol_apply Wa k q]
  unfold Cert.ReferenceIdeal.HostRun.attnOf attn leaky
  simp only [Host.dotGeneral, ref_dot_col_eq, dotGeneral_transposedRhs]
  rw [← hdot]
  show Scalar.select (FloatOps.cmpf (F := Ideal) (φ := .f32) .oge (rowsDot x Wa (ix2 p q)) zeroV) (rowsDot x Wa (ix2 p q))
      (slopeV * rowsDot x Wa (ix2 p q)) = _
  rw [mul_comm slopeV]

/-! ## The gathered rows -/

/-- Gathering from the table after the change of float format, with the same start indices, is the reference's gather. -/
theorem rows_eq (x : (⟨2, ![50000, 128]⟩ : Shape).Idx → EReal) (a : (⟨1, ![1000000]⟩ : Shape).Idx → BitVec 32) :
    (Cert.KernelIdeal.HostValue.rowsOf (F := Ideal) x a : (⟨2, ![1000000, 128]⟩ : Shape).Idx → EReal)
      = Cert.ReferenceIdeal.HostRun.rowsOf (F := Ideal) x a := rfl

end Cert.Bridge

end
-- ==== Proof.lean ====
/-
  The certificate of the edge layer: a graph layer that, for each of a million edges, gathers the source and destination
  rows of a node table, multiplies the side-by-side pair with a [128, 256] weight matrix, rectifies, and forms an attention
  factor by a second product through a leaky rectifier.

  The kernel computes, per block of 8000 edges, the two halves of the first product separately and adds them, then the
  second product; the reference concatenates the gathered rows and contracts over all 256 entries at once. On the extended
  reals the two are one function: a sum over 256 positions is the sum over its first 128 plus the sum over its last 128,
  which uses only that addition is commutative and associative, so no finiteness of the inputs is used. The kernel
  program's two output arrays are `edge` / `attn` of the arrays its windows read (the blocks tile the outputs and an entry
  depends on its own row only); those arrays are the host operations' terms of the arguments; and the reference's run ends
  at terms that are the same functions.
-/
import proofs.«112423_j712964571355_2_alg».proof.Defs
import proofs.«112423_j712964571355_2_alg».proof.Proof.Gen.Kernel
import proofs.«112423_j712964571355_2_alg».proof.Proof.Gen.Kernel.Skeleton
import proofs.«112423_j712964571355_2_alg».proof.Proof.Gen.Kernel.Launch
import proofs.«112423_j712964571355_2_alg».proof.Proof.Gen.Kernel.Points
import proofs.«112423_j712964571355_2_alg».proof.Proof.Gen.Kernel.Frame
import proofs.«112423_j712964571355_2_alg».proof.Proof.Gen.KernelIdeal
import proofs.«112423_j712964571355_2_alg».proof.Proof.Gen.KernelIdeal.Skeleton
import proofs.«112423_j712964571355_2_alg».proof.Proof.Gen.KernelIdeal.Launch
import proofs.«112423_j712964571355_2_alg».proof.Proof.Gen.KernelIdeal.Points
import proofs.«112423_j712964571355_2_alg».proof.Proof.Gen.KernelIdeal.Frame
import proofs.«112423_j712964571355_2_alg».proof.Proof.Gen.KernelIdeal.Value
import proofs.«112423_j712964571355_2_alg».proof.Proof.Gen.ReferenceIdeal
import proofs.«112423_j712964571355_2_alg».proof.Proof.Gen.Pre_finite_inputs
import proofs.«112423_j712964571355_2_alg».proof.Proof.KernelArray
import proofs.«112423_j712964571355_2_alg».proof.Proof.Bridge
import Idealize.ShloMosaic.Adequacy
import Idealize.ShloMosaic.Init

noncomputable section

namespace Cert.Proof

open Idealize.ShloMosaic Idealize.ShloMosaic.TcCoe Idealize.SL.Sem Cert.EdgeMlp

/-! ## The two results as one function of the arguments -/

/-- The reference's first result term, at the kernel program's arguments, is the kernel program's first output array. -/
theorem result_edge (m : (ℓ : Loc Cert.KernelIdeal.nD Cert.KernelIdeal.τ Cert.KernelIdeal.sig) → Buf (Elt Ideal) ℓ)
    (c : Dev Cert.KernelIdeal.nD) :
    Cert.ReferenceIdeal.HostRun.edgeOf (F := Ideal)
        (Cert.ReferenceIdeal.HostRun.rowsOf (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)))
        (Cert.ReferenceIdeal.HostRun.rowsOf (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)))
        (m ((c : Thread Cert.KernelIdeal.nD Cert.KernelIdeal.τ).loc Cert.KernelIdeal.main_arg3))
      = Cert.KernelIdeal.ArrayValue.edgeArr m c := by
  unfold Cert.KernelIdeal.ArrayValue.edgeArr
  rw [Cert.KernelIdeal.HostValue.V_src, Cert.KernelIdeal.HostValue.V_dst, Cert.KernelIdeal.HostValue.V_ws,
    Cert.KernelIdeal.HostValue.V_wd, Cert.Bridge.ref_edge_eq]
  rfl

/-- The same for the second result. -/
theorem result_attn (m : (ℓ : Loc Cert.KernelIdeal.nD Cert.KernelIdeal.τ Cert.KernelIdeal.sig) → Buf (Elt Ideal) ℓ)
    (c : Dev Cert.KernelIdeal.nD) :
    Cert.ReferenceIdeal.HostRun.attnOf (F := Ideal)
        (Cert.ReferenceIdeal.HostRun.edgeOf (F := Ideal)
          (Cert.ReferenceIdeal.HostRun.rowsOf (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)))
          (Cert.ReferenceIdeal.HostRun.rowsOf (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)))
          (m ((c : Thread Cert.KernelIdeal.nD Cert.KernelIdeal.τ).loc Cert.KernelIdeal.main_arg3)))
        (m ((c : Thread Cert.KernelIdeal.nD Cert.KernelIdeal.τ).loc Cert.KernelIdeal.main_arg4))
      = Cert.KernelIdeal.ArrayValue.attnArr m c := by
  rw [result_edge m c]
  unfold Cert.KernelIdeal.ArrayValue.attnArr
  rw [Cert.KernelIdeal.HostValue.V_wa, Cert.Bridge.ref_attn_eq]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.HostRun.run (F := Ideal) m ρ)

/-- The ideal pass rewrote nothing: the idealized kernel is the kernel's own text read on the extended reals. -/
theorem preserves : Cert.preserves_Kernel_KernelIdeal := trivial

/-- Both programs end with both results at the same functions of arguments that agree. -/
theorem algebraic : Cert.algebraic_KernelIdeal_ReferenceIdeal := by
  intro m ρ m' ρ' _ hagree
  refine ⟨fun c => Cert.KernelIdeal.ArrayValue.edgeArr m c, fun c => Cert.KernelIdeal.ArrayValue.attnArr m c,
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.HostRun.run (F := Ideal) m' ρ')
  · rw [(hagree c).1, (hagree c).2.1, (hagree c).2.2.1, (hagree c).2.2.2.1]
    exact result_edge m c
  · rw [(hagree c).1, (hagree c).2.1, (hagree c).2.2.1, (hagree c).2.2.2.1, (hagree c).2.2.2.2]
    exact result_attn m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
